-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x8x56x56 : Shape := ⟨4, ![16, 8, 56, 56]⟩
abbrev S16x64x56x56 : Shape := ⟨4, ![16, 64, 56, 56]⟩
abbrev S_ : Shape := ⟨0, ![]⟩

class Facts : Prop where
  bcast_S_S16x8x56x56 : S_.BroadcastsInDim S16x8x56x56 (![] : Fin 0 → Fin S16x8x56x56.rank)
  reducesTo_S16x8x56x56_S_d0_1_2_3 : S16x8x56x56.ReducesTo [0, 1, 2, 3] S_
  h_S_ : 0 < S_.numel
  bcast_S_S16x64x56x56 : S_.BroadcastsInDim S16x64x56x56 (![] : Fin 0 → Fin S16x64x56x56.rank)
  reducesTo_S16x64x56x56_S_d0_1_2_3 : S16x64x56x56.ReducesTo [0, 1, 2, 3] S_

variable [Facts]

def fn {F : FTy → Type} [FloatOps F] (main_arg0 : FVec F S16x8x56x56 .f32) (main_arg1 : FVec F S16x64x56x56 .f32) : IVec S_ 1 :=
  let main_v0 : FVec F S16x8x56x56 .f32 := Host.absf main_arg0
  let main_cst : FVec F S_ .f32 := constant S_ .f32 0x7F800000#32
  let main_v1 : FVec F S16x8x56x56 .f32 := broadcastInDim S16x8x56x56 ![] bcast_S_S16x8x56x56 main_cst
  let main_v2 : IVec S16x8x56x56 1 := cmpf .olt main_v0 main_v1
  let main_c : IVec S_ 1 := constantI S_ 1 1#1
  let main_v3 : IVec S_ 1 := (fun x v => Host.reduce IntOp.andi x v reducesTo_S16x8x56x56_S_d0_1_2_3 h_S_) main_v2 main_c
  let main_v4 : FVec F S16x64x56x56 .f32 := Host.absf main_arg1
  let main_cst_0 : FVec F S_ .f32 := constant S_ .f32 0x7F800000#32
  let main_v5 : FVec F S16x64x56x56 .f32 := broadcastInDim S16x64x56x56 ![] bcast_S_S16x64x56x56 main_cst_0
  let main_v6 : IVec S16x64x56x56 1 := cmpf .olt main_v4 main_v5
  let main_c_1 : IVec S_ 1 := constantI S_ 1 1#1
  let main_v7 : IVec S_ 1 := (fun x v => Host.reduce IntOp.andi x v reducesTo_S16x64x56x56_S_d0_1_2_3 h_S_) main_v6 main_c_1
  let main_v8 : IVec S_ 1 := andi main_v3 main_v7
  main_v8
-- ==== Kernel.lean ====
abbrev S16x8x56x56 : Shape := ⟨4, ![16, 8, 56, 56]⟩
abbrev S16x64x56x56 : Shape := ⟨4, ![16, 64, 56, 56]⟩
abbrev S16x8x3136 : Shape := ⟨3, ![16, 8, 3136]⟩
abbrev S16x64x3136 : Shape := ⟨3, ![16, 64, 3136]⟩
abbrev S16x8x64x3136 : Shape := ⟨4, ![16, 8, 64, 3136]⟩
abbrev S1x8x3136 : Shape := ⟨3, ![1, 8, 3136]⟩
abbrev S1x64x3136 : Shape := ⟨3, ![1, 64, 3136]⟩
abbrev S1x8x64x3136 : Shape := ⟨4, ![1, 8, 64, 3136]⟩
abbrev S64x3136 : Shape := ⟨2, ![64, 3136]⟩
abbrev S1x1x3136 : Shape := ⟨3, ![1, 1, 3136]⟩
abbrev S3136 : Shape := ⟨1, ![3136]⟩
abbrev S1x3136 : Shape := ⟨2, ![1, 3136]⟩
abbrev S1x1x64x3136 : Shape := ⟨4, ![1, 1, 64, 3136]⟩
abbrev S16x512x56x56 : Shape := ⟨4, ![16, 512, 56, 56]⟩

abbrev nBuf : Space → Nat
  | .hbm => 6
  | .vmem => 6
  | .smem => 0
  | _ => 0

abbrev bufTy : (tb : Table) → Fin (tcTables nBuf tb) → BufTy
  | .hbm, ⟨0, _⟩ => ⟨S16x8x56x56, .f32⟩
  | .hbm, ⟨1, _⟩ => ⟨S16x64x56x56, .f32⟩
  | .hbm, ⟨2, _⟩ => ⟨S16x8x3136, .f32⟩
  | .hbm, ⟨3, _⟩ => ⟨S16x64x3136, .f32⟩
  | .hbm, ⟨4, _⟩ => ⟨S16x8x64x3136, .f32⟩
  | .hbm, ⟨5, _⟩ => ⟨S16x512x56x56, .f32⟩
  | .local _ .vmem, ⟨0, _⟩ => ⟨S1x8x3136, .f32⟩
  | .local _ .vmem, ⟨1, _⟩ => ⟨S1x8x3136, .f32⟩
  | .local _ .vmem, ⟨2, _⟩ => ⟨S1x64x3136, .f32⟩
  | .local _ .vmem, ⟨3, _⟩ => ⟨S1x64x3136, .f32⟩
  | .local _ .vmem, ⟨4, _⟩ => ⟨S1x8x64x3136, .f32⟩
  | .local _ .vmem, ⟨5, _⟩ => ⟨S1x8x64x3136, .f32⟩
  | _, _ => ⟨S16x8x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x8x3136 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x3136 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x64x3136 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S16x8x56x56_S16x8x3136 : S16x8x56x56.ShapeCasts S16x8x3136
  shapeCasts_S16x64x56x56_S16x64x3136 : S16x64x56x56.ShapeCasts S16x64x3136
  inb_S1x64x3136_S1x64x3136_0_0_0 : ∀ a, (![0, 0, 0] : Fin 3 → Nat) a + S1x64x3136.size a ≤ S1x64x3136.size a
  h_S1x64x3136 : 0 < S1x64x3136.numel
  shapeCasts_S1x64x3136_S64x3136 : S1x64x3136.ShapeCasts S64x3136
  inb_S1x8x3136_S1x1x3136_0_0_0 : ∀ a, (![0, 0, 0] : Fin 3 → Nat) a + S1x1x3136.size a ≤ S1x8x3136.size a
  h_S1x1x3136 : 0 < S1x1x3136.numel
  shapeCasts_S1x1x3136_S3136 : S1x1x3136.ShapeCasts S3136
  shapeCasts_S3136_S1x3136 : S3136.ShapeCasts S1x3136
  broadcasts_S1x3136_S64x3136 : S1x3136.Broadcasts S64x3136
  inb_S1x8x64x3136_S1x1x64x3136_0_0_0_0 : ∀ a, (![0, 0, 0, 0] : Fin 4 → Nat) a + S1x1x64x3136.size a ≤ S1x8x64x3136.size a
  h_S1x1x64x3136 : 0 < S1x1x64x3136.numel
  shapeCasts_S1x1x64x3136_S64x3136 : S1x1x64x3136.ShapeCasts S64x3136
  shapeCasts_S64x3136_S1x1x64x3136 : S64x3136.ShapeCasts S1x1x64x3136
  inb_S1x8x3136_S1x1x3136_0_1_0 : ∀ a, (![0, 1, 0] : Fin 3 → Nat) a + S1x1x3136.size a ≤ S1x8x3136.size a
  inb_S1x8x64x3136_S1x1x64x3136_0_1_0_0 : ∀ a, (![0, 1, 0, 0] : Fin 4 → Nat) a + S1x1x64x3136.size a ≤ S1x8x64x3136.size a
  inb_S1x8x3136_S1x1x3136_0_2_0 : ∀ a, (![0, 2, 0] : Fin 3 → Nat) a + S1x1x3136.size a ≤ S1x8x3136.size a
  inb_S1x8x64x3136_S1x1x64x3136_0_2_0_0 : ∀ a, (![0, 2, 0, 0] : Fin 4 → Nat) a + S1x1x64x3136.size a ≤ S1x8x64x3136.size a
  inb_S1x8x3136_S1x1x3136_0_3_0 : ∀ a, (![0, 3, 0] : Fin 3 → Nat) a + S1x1x3136.size a ≤ S1x8x3136.size a
  inb_S1x8x64x3136_S1x1x64x3136_0_3_0_0 : ∀ a, (![0, 3, 0, 0] : Fin 4 → Nat) a + S1x1x64x3136.size a ≤ S1x8x64x3136.size a
  inb_S1x8x3136_S1x1x3136_0_4_0 : ∀ a, (![0, 4, 0] : Fin 3 → Nat) a + S1x1x3136.size a ≤ S1x8x3136.size a
  inb_S1x8x64x3136_S1x1x64x3136_0_4_0_0 : ∀ a, (![0, 4, 0, 0] : Fin 4 → Nat) a + S1x1x64x3136.size a ≤ S1x8x64x3136.size a
  inb_S1x8x3136_S1x1x3136_0_5_0 : ∀ a, (![0, 5, 0] : Fin 3 → Nat) a + S1x1x3136.size a ≤ S1x8x3136.size a
  inb_S1x8x64x3136_S1x1x64x3136_0_5_0_0 : ∀ a, (![0, 5, 0, 0] : Fin 4 → Nat) a + S1x1x64x3136.size a ≤ S1x8x64x3136.size a
  inb_S1x8x3136_S1x1x3136_0_6_0 : ∀ a, (![0, 6, 0] : Fin 3 → Nat) a + S1x1x3136.size a ≤ S1x8x3136.size a
  inb_S1x8x64x3136_S1x1x64x3136_0_6_0_0 : ∀ a, (![0, 6, 0, 0] : Fin 4 → Nat) a + S1x1x64x3136.size a ≤ S1x8x64x3136.size a
  inb_S1x8x3136_S1x1x3136_0_7_0 : ∀ a, (![0, 7, 0] : Fin 3 → Nat) a + S1x1x3136.size a ≤ S1x8x3136.size a
  inb_S1x8x64x3136_S1x1x64x3136_0_7_0_0 : ∀ a, (![0, 7, 0, 0] : Fin 4 → Nat) a + S1x1x64x3136.size a ≤ S1x8x64x3136.size a
  shapeCasts_S16x8x64x3136_S16x512x56x56 : S16x8x64x3136.ShapeCasts S16x512x56x56
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8x3136.size a ≤ S16x8x3136.size a
  hwx0_0 : ∀ i : grid0.Coords, EltTy.bits .f32 = 32 ∨ (Rect.block (s := S16x8x3136) S1x8x3136.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x3136.size a ≤ S16x64x3136.size a
  hwx0_1 : ∀ i : grid0.Coords, EltTy.bits .f32 = 32 ∨ (Rect.block (s := S16x64x3136) S1x64x3136.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x64x3136.size a ≤ S16x8x64x3136.size a
  hwx0_2 : ∀ i : grid0.Coords, EltTy.bits .f32 = 32 ∨ (Rect.block (s := S16x8x64x3136) S1x8x64x3136.size (cc0_transform_2 i) (hinb0_2 i)).WholeWords (EltTy.packing .f32)

variable [Facts₀]

abbrev win0_0 : Pipeline.Window sig grid0 :=
  Pipeline.Window.ofSpec (Memref.whole main_v0) S1x8x3136.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x64x3136.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x8x64x3136.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x8x56x56 : Shape := ⟨4, ![16, 8, 56, 56]⟩
abbrev S16x64x56x56 : Shape := ⟨4, ![16, 64, 56, 56]⟩
abbrev S16x8x1x56x56 : Shape := ⟨5, ![16, 8, 1, 56, 56]⟩
abbrev S16x1x64x56x56 : Shape := ⟨5, ![16, 1, 64, 56, 56]⟩
abbrev S16x8x64x56x56 : Shape := ⟨5, ![16, 8, 64, 56, 56]⟩
abbrev S16x512x56x56 : Shape := ⟨4, ![16, 512, 56, 56]⟩

abbrev nBuf : Space → Nat
  | .hbm => 8
  | .vmem => 0
  | .smem => 0
  | _ => 0

abbrev bufTy : (tb : Table) → Fin (tcTables nBuf tb) → BufTy
  | .hbm, ⟨0, _⟩ => ⟨S16x8x56x56, .f32⟩
  | .hbm, ⟨1, _⟩ => ⟨S16x64x56x56, .f32⟩
  | .hbm, ⟨2, _⟩ => ⟨S16x8x1x56x56, .f32⟩
  | .hbm, ⟨3, _⟩ => ⟨S16x1x64x56x56, .f32⟩
  | .hbm, ⟨4, _⟩ => ⟨S16x8x64x56x56, .f32⟩
  | .hbm, ⟨5, _⟩ => ⟨S16x8x64x56x56, .f32⟩
  | .hbm, ⟨6, _⟩ => ⟨S16x8x64x56x56, .f32⟩
  | .hbm, ⟨7, _⟩ => ⟨S16x512x56x56, .f32⟩
  | _, _ => ⟨S16x8x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]

class Facts₀ : Prop where
  bcast_S16x8x56x56_S16x8x1x56x56_0_1_3_4 : S16x8x56x56.BroadcastsInDim S16x8x1x56x56 (![0, 1, 3, 4] : Fin 4 → Fin S16x8x1x56x56.rank)
  bcast_S16x64x56x56_S16x1x64x56x56_0_2_3_4 : S16x64x56x56.BroadcastsInDim S16x1x64x56x56 (![0, 2, 3, 4] : Fin 4 → Fin S16x1x64x56x56.rank)
  bcast_S16x8x1x56x56_S16x8x64x56x56_0_1_2_3_4 : S16x8x1x56x56.BroadcastsInDim S16x8x64x56x56 (![0, 1, 2, 3, 4] : Fin 5 → Fin S16x8x64x56x56.rank)
  bcast_S16x1x64x56x56_S16x8x64x56x56_0_1_2_3_4 : S16x1x64x56x56.BroadcastsInDim S16x8x64x56x56 (![0, 1, 2, 3, 4] : Fin 5 → Fin S16x8x64x56x56.rank)
  shapeCasts_S16x8x64x56x56_S16x512x56x56 : S16x8x64x56x56.ShapeCasts S16x512x56x56

variable [Facts₀]

class Facts : Prop extends Facts₀ where

variable [Facts]
-- ==== Proof.Outer.lean ====
/-
  The product the kernel's launch leaves in its result array.

  The two arguments reach the launch with their two spatial axes merged into one of 3136 positions:
  `a` of shape [16, 8, 3136] and `b` of shape [16, 64, 3136]. The launch's result, of shape
  [16, 8, 64, 3136], holds at (n, c, k, s) the product of `b` at (n, k, s) and `a` at (n, c, s): for every
  sample `n` and position `s`, the outer product of the 64 channels of `b` with the 8 channels of `a`.
  The factors are written in the order the kernel multiplies them, for any float instance.
-/
import proofs.«145135_j36876589203912_2_alg».proof.KernelIdeal
import Idealize.ShloMosaic.Lib.ValueIdx

noncomputable section

namespace Cert.KernelIdeal.Outer

open Idealize.ShloMosaic Idealize.ShloMosaic.ValueIdx Cert.KernelIdeal

variable {F : FTy → Type} [FloatOps F]

/-- The channel outer product, index by index: at (n, c, k, s) it is `b (n, k, s) · a (n, c, s)`. -/
def outer (a : S16x8x3136.Idx → Elt F .f32) (b : S16x64x3136.Idx → Elt F .f32) : S16x8x64x3136.Idx → Elt F .f32 :=
  fun j => FloatOps.mulf
    (b (ix3 (⟨(j 0).val, (j 0).isLt⟩ : Fin 16) (⟨(j 2).val, (j 2).isLt⟩ : Fin 64) (⟨(j 3).val, (j 3).isLt⟩ : Fin 3136)))
    (a (ix3 (⟨(j 0).val, (j 0).isLt⟩ : Fin 16) (⟨(j 1).val, (j 1).isLt⟩ : Fin 8) (⟨(j 3).val, (j 3).isLt⟩ : Fin 3136)))

/-- The same at explicit coordinates. -/
theorem outer_ix (a : S16x8x3136.Idx → Elt F .f32) (b : S16x64x3136.Idx → Elt F .f32)
    (n : Fin 16) (c : Fin 8) (k : Fin 64) (s : Fin 3136) :
    outer a b (ix4 n c k s) = FloatOps.mulf (b (ix3 n k s)) (a (ix3 n c s)) := rfl

end Cert.KernelIdeal.Outer

end
-- ==== Proof.Slab.lean ====
/-
  What one grid point's body leaves in its output block.

  At a grid point the body holds one sample: `x0`, the sample's 8 rows of 3136 positions, and `x1`, its 64 rows.
  It stores eight slabs, one per row `c` of `x0`: slab `c` is the whole of `x1` with every row multiplied, position
  by position, by row `c` of `x0`. Read at an index, slab `c` at (k, s) is `x1 (k, s) · x0 (c, s)`; slab `c` goes to
  the rectangle of the block whose second coordinate is `c`, and the eight rectangles tile the block. So the block
  after the body is ONE function of the block index: at (0, c, k, s) it is `x1 (0, k, s) · x0 (0, c, s)`.
-/
import proofs.«145135_j36876589203912_2_alg».proof.Proof.Gen.KernelIdeal.Frame
import Idealize.ShloMosaic.Lib.Pipeline.Value
import Idealize.ShloMosaic.Lib.ValueIdx

noncomputable section

namespace Cert.KernelIdeal.Outer

open Idealize.ShloMosaic Idealize.ShloMosaic.ValueIdx Cert.KernelIdeal Cert.KernelIdeal.Gen

variable {F : FTy → Type} [FloatOps F]

/-- One stored slab: the 64 rows `u`, each multiplied position by position by the single row `v`, laid out with two
    leading unit axes. -/
def slab (u : FVec F S64x3136 .f32) (v : Vec F S1x1x3136 .f32) : FVec F S1x1x64x3136 .f32 :=
  shapeCast S1x1x64x3136
    (mulf u (broadcastTo S64x3136 (shapeCast S1x3136 (shapeCast S3136 v shapeCasts_S1x1x3136_S3136) shapeCasts_S3136_S1x3136)
      broadcasts_S1x3136_S64x3136))
    shapeCasts_S64x3136_S1x1x64x3136

/-- A slab at (0, 0, k, s) is row `k` of `u` at `s` times the row `v` at `s`: the two leading unit axes carry no
    position, the broadcast copies the one row to all 64, and the product is taken element by element. -/
theorem slab_apply (u : FVec F S64x3136 .f32) (v : Vec F S1x1x3136 .f32) (k : Fin 64) (s : Fin 3136) :
    slab u v (ix4 (0 : Fin 1) (0 : Fin 1) k s) = FloatOps.mulf (u (ix2 k s)) (v (ix3 (0 : Fin 1) (0 : Fin 1) s)) := by
  unfold slab
  refine (shapeCast_apply _ shapeCasts_S64x3136_S1x1x64x3136 (ix4 (0 : Fin 1) (0 : Fin 1) k s) (ix2 k s) ?_).trans ?_
  · rw [Shape.rowMajor_val_two, Shape.rowMajor_val_four]
    show k.val * 3136 + s.val = (((0 : Nat) * 1 + 0) * 64 + k.val) * 3136 + s.val
    omega
  show FloatOps.mulf (u (ix2 k s)) _ = _
  refine congrArg (FloatOps.mulf (u (ix2 k s))) ?_
  refine (broadcastTo_apply _ broadcasts_S1x3136_S64x3136 (ix2 k s) (ix2 (0 : Fin 1) s) (fun a => ?_)).trans ?_
  · match a with
    | ⟨0, _⟩ => show (0 : Nat) = if (1 : Nat) = 1 then 0 else k.val; rw [if_pos rfl]
    | ⟨1, _⟩ => show s.val = if (3136 : Nat) = 1 then 0 else s.val; rw [if_neg (by decide)]
  refine (shapeCast_apply _ shapeCasts_S3136_S1x3136 (ix2 (0 : Fin 1) s) (ix1 s) ?_).trans ?_
  · rw [Shape.rowMajor_val_one, Shape.rowMajor_val_two]
    show s.val = (0 : Nat) * 3136 + s.val
    omega
  refine shapeCast_apply _ shapeCasts_S1x1x3136_S3136 (ix1 s) (ix3 (0 : Fin 1) (0 : Fin 1) s) ?_
  rw [Shape.rowMajor_val_three, Shape.rowMajor_val_one]
  show ((0 : Nat) * 1 + 0) * 3136 + s.val = s.val
  omega

/-- The block after the body, as one function of the block index. -/
def tile (x0 : Vec F S1x8x3136 .f32) (x1 : Vec F S1x64x3136 .f32) : S1x8x64x3136.Idx → Elt F .f32 :=
  fun y => FloatOps.mulf
    (x1 (ix3 (0 : Fin 1) (⟨(y 2).val, (y 2).isLt⟩ : Fin 64) (⟨(y 3).val, (y 3).isLt⟩ : Fin 3136)))
    (x0 (ix3 (0 : Fin 1) (⟨(y 1).val, (y 1).isLt⟩ : Fin 8) (⟨(y 3).val, (y 3).isLt⟩ : Fin 3136)))

theorem zeros3 : (![0, 0, 0] : Fin 3 → Nat) = fun _ => 0 := funext fun a => by fin_cases a <;> rfl

/-- The 64 rows with the leading unit axis dropped, at (k, s), are the sample's rows at (0, k, s). -/
theorem rows_apply (x1 : Vec F S1x64x3136 .f32) (k : Fin 64) (s : Fin 3136) :
    k0_pay2 (View.ld x1 r0_0) (ix2 k s) = x1 (ix3 (0 : Fin 1) k s) := by
  unfold k0_pay2
  rw [View.ld_unit_zero zeros3]
  refine shapeCast_apply _ shapeCasts_S1x64x3136_S64x3136 (ix2 k s) (ix3 (0 : Fin 1) k s) ?_
  rw [Shape.rowMajor_val_three, Shape.rowMajor_val_two]
  show ((0 : Nat) * 64 + k.val) * 3136 + s.val = k.val * 3136 + s.val
  omega

/-- SLAB `c` IS THE TILE ON ITS RECTANGLE: the slab built from the sample's 64 rows and row `c` of its 8 rows, at a
    slab index, is `tile` at that index placed in the block at second coordinate `c`. -/
theorem slab_restricts (x0 : Vec F S1x8x3136 .f32) (x1 : Vec F S1x64x3136 .f32) (c : Nat) (hc : c < 8)
    (inbL : ∀ a, (![0, c, 0] : Fin 3 → Nat) a + S1x1x3136.size a ≤ S1x8x3136.size a)
    (inbS : ∀ a, (![0, c, 0, 0] : Fin 4 → Nat) a + S1x1x64x3136.size a ≤ S1x8x64x3136.size a)
    (x : S1x1x64x3136.Idx) :
    slab (k0_pay2 (View.ld x1 r0_0)) (View.ld x0 (Rect.unit (s := S1x8x3136) ![0, c, 0] S1x1x3136.size inbL)) x
      = tile x0 x1 ((Rect.unit (s := S1x8x64x3136) ![0, c, 0, 0] S1x1x64x3136.size inbS).emb x) := by
  obtain ⟨p, q, k, s, rfl⟩ : ∃ (p q : Fin 1) (k : Fin 64) (s : Fin 3136), x = ix4 p q k s :=
    ⟨x 0, x 1, x 2, x 3, eq_ix4 x⟩
  obtain rfl : p = 0 := Subsingleton.elim _ _
  obtain rfl : q = 0 := Subsingleton.elim _ _
  rw [slab_apply, rows_apply]
  unfold tile
  have e1 : (ix3 (0 : Fin 1) k s : S1x64x3136.Idx)
      = ix3 (0 : Fin 1)
          (⟨((Rect.unit (s := S1x8x64x3136) ![0, c, 0, 0] S1x1x64x3136.size inbS).emb (ix4 (0 : Fin 1) (0 : Fin 1) k s) 2).val, Fin.isLt _⟩ : Fin 64)
          (⟨((Rect.unit (s := S1x8x64x3136) ![0, c, 0, 0] S1x1x64x3136.size inbS).emb (ix4 (0 : Fin 1) (0 : Fin 1) k s) 3).val, Fin.isLt _⟩ : Fin 3136) := by
    funext a; apply Fin.ext
    match a with
    | ⟨0, _⟩ => rfl
    | ⟨1, _⟩ => show k.val = 0 + 1 * k.val; omega
    | ⟨2, _⟩ => show s.val = 0 + 1 * s.val; omega
  have e0 : (Rect.unit (s := S1x8x3136) ![0, c, 0] S1x1x3136.size inbL).idx (ix3 (0 : Fin 1) (0 : Fin 1) s)
      = ix3 (0 : Fin 1)
          (⟨((Rect.unit (s := S1x8x64x3136) ![0, c, 0, 0] S1x1x64x3136.size inbS).emb (ix4 (0 : Fin 1) (0 : Fin 1) k s) 1).val, Fin.isLt _⟩ : Fin 8)
          (⟨((Rect.unit (s := S1x8x64x3136) ![0, c, 0, 0] S1x1x64x3136.size inbS).emb (ix4 (0 : Fin 1) (0 : Fin 1) k s) 3).val, Fin.isLt _⟩ : Fin 3136) := by
    funext a; apply Fin.ext
    match a with
    | ⟨0, _⟩ => show 0 + 1 * 0 = 0; omega
    | ⟨1, _⟩ => show c + 1 * 0 = c + 1 * 0; rfl
    | ⟨2, _⟩ => show 0 + 1 * s.val = 0 + 1 * s.val; rfl
  show FloatOps.mulf (x1 (ix3 (0 : Fin 1) k s)) (x0 ((Rect.unit (s := S1x8x3136) ![0, c, 0] S1x1x3136.size inbL).idx (ix3 (0 : Fin 1) (0 : Fin 1) s))) = _
  rw [e0, ← e1]

/-- THE BLOCK AFTER THE BODY is `tile` of the point's two input blocks: each of the eight stores holds `tile` on its
    own rectangle, and the rectangles cover the block. -/
theorem out_tile (x0 : Vec F S1x8x3136 .f32) (x1 : Vec F S1x64x3136 .f32) : out0_2 x0 x1 = tile x0 x1 := by
  funext y
  unfold out0_2
  refine View.canon_apply_of_pieces (tile x0 x1) _ (fun p hp x => ?_) y (cover0_2 _ _ _ _ _ _ _ _ y)
  simp only [List.mem_cons, List.mem_nil_iff, or_false] at hp
  rcases hp with rfl | rfl | rfl | rfl | rfl | rfl | rfl | rfl
  · exact slab_restricts x0 x1 7 (by omega) inb_S1x8x3136_S1x1x3136_0_7_0 inb_S1x8x64x3136_S1x1x64x3136_0_7_0_0 x
  · exact slab_restricts x0 x1 6 (by omega) inb_S1x8x3136_S1x1x3136_0_6_0 inb_S1x8x64x3136_S1x1x64x3136_0_6_0_0 x
  · exact slab_restricts x0 x1 5 (by omega) inb_S1x8x3136_S1x1x3136_0_5_0 inb_S1x8x64x3136_S1x1x64x3136_0_5_0_0 x
  · exact slab_restricts x0 x1 4 (by omega) inb_S1x8x3136_S1x1x3136_0_4_0 inb_S1x8x64x3136_S1x1x64x3136_0_4_0_0 x
  · exact slab_restricts x0 x1 3 (by omega) inb_S1x8x3136_S1x1x3136_0_3_0 inb_S1x8x64x3136_S1x1x64x3136_0_3_0_0 x
  · exact slab_restricts x0 x1 2 (by omega) inb_S1x8x3136_S1x1x3136_0_2_0 inb_S1x8x64x3136_S1x1x64x3136_0_2_0_0 x
  · exact slab_restricts x0 x1 1 (by omega) inb_S1x8x3136_S1x1x3136_0_1_0 inb_S1x8x64x3136_S1x1x64x3136_0_1_0_0 x
  · exact slab_restricts x0 x1 0 (by omega) inb_S1x8x3136_S1x1x3136_0_0_0 inb_S1x8x64x3136_S1x1x64x3136_0_0_0_0 x

end Cert.KernelIdeal.Outer

end
-- ==== Proof.Blocks.lean ====
/-
  From the blocks to the launch's result array.

  The grid has 16 points, one per sample. At point `t` each window's block is sample `t` of its array, whole on
  every other axis: the first input window reads rows (t, ·, ·) of the [16, 8, 3136] array, the second rows
  (t, ·, ·) of the [16, 64, 3136] array, and the output window writes rows (t, ·, ·, ·) of the [16, 8, 64, 3136]
  result. What the body leaves (the tile of the two input blocks) is therefore block `t` of ONE function of the two
  arrays, the channel outer product; every index of the result lies in the block of the point named by its first
  coordinate; so after the sixteen write-backs the result array is the outer product of the two arrays.
-/
import proofs.«145135_j36876589203912_2_alg».proof.Proof.Outer
import proofs.«145135_j36876589203912_2_alg».proof.Proof.Slab

noncomputable section

namespace Cert.KernelIdeal.Outer

open Idealize.ShloMosaic Idealize.ShloMosaic.TcCoe Idealize.SL.Sem Idealize.ShloMosaic.ValueIdx
open Cert.KernelIdeal Cert.KernelIdeal.Gen
open Idealize.ShloMosaic.Pipeline (Dat)

variable {F : FTy → Type} [FloatOps F]
variable (m : (ℓ : Loc nD τ sig) → Buf (Elt F) ℓ) (ρ : Dev nD → PrngReg)

/-- The three index maps over the grid: every window's block index is the point on the first axis and zero on the
    others. -/
theorem blockIndex : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 4) = t.val ∧ win0_2.index t (1 : Fin 4) = 0 ∧ win0_2.index t (2 : Fin 4) = 0
    ∧ win0_2.index t (3 : Fin 4) = 0 :=
  (by decide +kernel : ∀ t : Fin grid0.N, _)

/-- A grid point as a sample number. -/
abbrev sample (t : Fin cfg0.N) : Fin 16 := Fin.cast N_0 t

/-- Row (0, c, s) of the first input block at point `t` is the array's entry (t, c, s). -/
theorem read_scale (c : Dev nD) (t : Fin cfg0.N) (r : Fin 8) (s : Fin 3136) :
    iblk m c 0 t (ix3 (0 : Fin 1) r s) = V m c main_v0 (ix3 (sample t) r s) := by
  obtain ⟨a0, a1, a2, -⟩ := blockIndex t
  show V m c main_v0 (((cfg0.win 0).blk t).view.emb (ix3 (0 : Fin 1) r s)) = V m c main_v0 (ix3 (sample t) r s)
  refine congrArg (V m c main_v0) ?_
  funext a; apply Fin.ext
  match a with
  | ⟨0, _⟩ => show win0_0.index t (0 : Fin 3) * 1 + 1 * 0 = t.val; omega
  | ⟨1, _⟩ => show win0_0.index t (1 : Fin 3) * 8 + 1 * r.val = r.val; omega
  | ⟨2, _⟩ => show win0_0.index t (2 : Fin 3) * 3136 + 1 * s.val = s.val; omega

/-- Row (0, k, s) of the second input block at point `t` is the array's entry (t, k, s). -/
theorem read_rows (c : Dev nD) (t : Fin cfg0.N) (k : Fin 64) (s : Fin 3136) :
    iblk m c 1 t (ix3 (0 : Fin 1) k s) = V m c main_v1 (ix3 (sample t) k s) := by
  obtain ⟨-, -, -, b0, b1, b2, -⟩ := blockIndex t
  show V m c main_v1 (((cfg0.win 1).blk t).view.emb (ix3 (0 : Fin 1) k s)) = V m c main_v1 (ix3 (sample t) k s)
  refine congrArg (V m c main_v1) ?_
  funext a; apply Fin.ext
  match a with
  | ⟨0, _⟩ => show win0_1.index t (0 : Fin 3) * 1 + 1 * 0 = t.val; omega
  | ⟨1, _⟩ => show win0_1.index t (1 : Fin 3) * 64 + 1 * k.val = k.val; omega
  | ⟨2, _⟩ => show win0_1.index t (2 : Fin 3) * 3136 + 1 * s.val = s.val; omega

/-- WHAT POINT `t` WRITES BACK is block `t` of the outer product of the two arrays as the launch finds them. -/
theorem flushed_eq (c : Dev nD) (t : Fin cfg0.N) :
    (dats m 0 c).flushed 2 t
      = ((cfg0.win 2).blk t).view.read (Elt F) (outer (V m c main_v0) (V m c main_v1)) := by
  show (cfg0.win 2).cut (grid0.coords t) ((dats m 0 c).after 2 t) = _
  rw [after0_2, out_tile]
  obtain ⟨-, -, -, -, -, -, o0, o1, o2, o3⟩ := blockIndex t
  funext y
  have hy0 : (y 0).val < 1 := (y 0).isLt
  have e0 : ((((cfg0.win 2).blk t).view.emb y) 0).val = t.val := by
    show win0_2.index t (0 : Fin 4) * 1 + 1 * (y 0).val = t.val; omega
  have e1 : ((((cfg0.win 2).blk t).view.emb y) 1).val = (y 1).val := by
    show win0_2.index t (1 : Fin 4) * 8 + 1 * (y 1).val = (y 1).val; omega
  have e2 : ((((cfg0.win 2).blk t).view.emb y) 2).val = (y 2).val := by
    show win0_2.index t (2 : Fin 4) * 64 + 1 * (y 2).val = (y 2).val; omega
  have e3 : ((((cfg0.win 2).blk t).view.emb y) 3).val = (y 3).val := by
    show win0_2.index t (3 : Fin 4) * 3136 + 1 * (y 3).val = (y 3).val; omega
  show FloatOps.mulf
        (iblk m c 1 t (ix3 (0 : Fin 1) (⟨(y 2).val, (y 2).isLt⟩ : Fin 64) (⟨(y 3).val, (y 3).isLt⟩ : Fin 3136)))
        (iblk m c 0 t (ix3 (0 : Fin 1) (⟨(y 1).val, (y 1).isLt⟩ : Fin 8) (⟨(y 3).val, (y 3).isLt⟩ : Fin 3136)))
      = outer (V m c main_v0) (V m c main_v1) (((cfg0.win 2).blk t).view.emb y)
  rw [read_rows, read_scale]
  unfold outer
  refine congrArg₂ FloatOps.mulf (congrArg (V m c main_v1) ?_) (congrArg (V m c main_v0) ?_)
  · funext a; apply Fin.ext
    match a with
    | ⟨0, _⟩ => exact e0.symm
    | ⟨1, _⟩ => exact e2.symm
    | ⟨2, _⟩ => exact e3.symm
  · funext a; apply Fin.ext
    match a with
    | ⟨0, _⟩ => exact e0.symm
    | ⟨1, _⟩ => exact e1.symm
    | ⟨2, _⟩ => exact e3.symm

/-- An index of the result array is in point `t`'s block iff each coordinate is in the block's range on its axis. -/
theorem mem_block (t : Fin cfg0.N) (i : S16x8x64x3136.Idx) :
    i ∈ ((cfg0.win 2).blk t).view.set ↔ ∀ a : Fin 4, win0_2.index t a * S1x8x64x3136.size a ≤ (i a).val
      ∧ (i a).val < win0_2.index t a * S1x8x64x3136.size a + S1x8x64x3136.size a := by
  show i ∈ ((View.whole main_v2).slice (win0_2.rect t)).set ↔ _
  rw [View.set_slice_whole, Rect.mem_set_unit]
  exact Iff.rfl

/-- Every index of the result array is written back by the point its first coordinate names. -/
theorem cover (i : S16x8x64x3136.Idx) :
    ∃ t : Fin cfg0.N, (cfg0.win 2).flush t = true ∧ i ∈ ((cfg0.win 2).blk t).view.set := by
  have h0 : (i 0).val < 16 := (i 0).isLt
  have h1 : (i 1).val < 8 := (i 1).isLt
  have h2 : (i 2).val < 64 := (i 2).isLt
  have h3 : (i 3).val < 3136 := (i 3).isLt
  obtain ⟨t, ht⟩ : ∃ t : Fin cfg0.N, t.val = (i 0).val := ⟨Fin.cast N_0.symm ⟨(i 0).val, h0⟩, rfl⟩
  obtain ⟨-, -, -, -, -, -, o0, o1, o2, o3⟩ := blockIndex t
  refine ⟨t, flush0_2 t, ?_⟩
  rw [mem_block]
  intro a
  match a with
  | ⟨0, _⟩ =>
    show win0_2.index t (0 : Fin 4) * 1 ≤ (i 0).val ∧ (i 0).val < win0_2.index t (0 : Fin 4) * 1 + 1
    omega
  | ⟨1, _⟩ =>
    show win0_2.index t (1 : Fin 4) * 8 ≤ (i 1).val ∧ (i 1).val < win0_2.index t (1 : Fin 4) * 8 + 8
    omega
  | ⟨2, _⟩ =>
    show win0_2.index t (2 : Fin 4) * 64 ≤ (i 2).val ∧ (i 2).val < win0_2.index t (2 : Fin 4) * 64 + 64
    omega
  | ⟨3, _⟩ =>
    show win0_2.index t (3 : Fin 4) * 3136 ≤ (i 3).val ∧ (i 3).val < win0_2.index t (3 : Fin 4) * 3136 + 3136
    omega

/-- THE RESULT ARRAY OF THE LAUNCH after the run is the outer product of the two arrays as the launch finds them. -/
theorem region_array (c : Dev nD) :
    (dats m 0 c).arrAt 2 cfg0.N = outer (V m c main_v0) (V m c main_v1) :=
  (dats m 0 c).arrAt_eq_of_cover 2 (outer (V m c main_v0) (V m c main_v1)) (fun t _ => flushed_eq m c t) cover

end Cert.KernelIdeal.Outer

end
-- ==== Proof.Result.lean ====
/-
  The kernel program's result as one function of its two arguments.

  The program merges the two spatial axes of each argument ([56, 56] to 3136), takes the channel outer product, and
  reads the [16, 8, 64, 3136] product back as [16, 512, 56, 56]. All three reshapes keep the row-major order, so the
  result at (n, ch, h, w) is the outer product at channel pair (ch / 64, ch mod 64) and position 56·h + w, which is
  `b (n, ch mod 64, h, w) · a (n, ch / 64, h, w)`.
-/
import proofs.«145135_j36876589203912_2_alg».proof.Proof.Outer
import proofs.«145135_j36876589203912_2_alg».proof.Proof.Gen.KernelIdeal
import Idealize.ShloMosaic.Lib.Pipeline.Value

noncomputable section

namespace Cert.KernelIdeal.Outer

open Idealize.ShloMosaic Idealize.ShloMosaic.ValueIdx Cert.KernelIdeal Cert.KernelIdeal.Gen

variable {F : FTy → Type} [FloatOps F]

/-- The two arguments merged, multiplied out, and read back with 512 channels. -/
def result (a : S16x8x56x56.Idx → Elt F .f32) (b : S16x64x56x56.Idx → Elt F .f32) : S16x512x56x56.Idx → Elt F .f32 :=
  shapeCast S16x512x56x56
    (outer (shapeCast S16x8x3136 a shapeCasts_S16x8x56x56_S16x8x3136)
      (shapeCast S16x64x3136 b shapeCasts_S16x64x56x56_S16x64x3136))
    shapeCasts_S16x8x64x3136_S16x512x56x56

/-- The result at (n, ch, h, w): channel `ch` is the pair (ch / 64, ch mod 64), position (h, w) is 56·h + w. -/
theorem result_ix (a : S16x8x56x56.Idx → Elt F .f32) (b : S16x64x56x56.Idx → Elt F .f32)
    (n : Fin 16) (ch : Fin 512) (h w : Fin 56) :
    result a b (ix4 n ch h w)
      = FloatOps.mulf (b (ix4 n (⟨ch.val % 64, Nat.mod_lt _ (by decide)⟩ : Fin 64) h w))
          (a (ix4 n (⟨ch.val / 64, by have := ch.isLt; omega⟩ : Fin 8) h w)) := by
  have hn : n.val < 16 := n.isLt
  have hch : ch.val < 512 := ch.isLt
  have hh : h.val < 56 := h.isLt
  have hw : w.val < 56 := w.isLt
  unfold result
  refine (shapeCast_apply _ shapeCasts_S16x8x64x3136_S16x512x56x56 (ix4 n ch h w)
    (ix4 n (⟨ch.val / 64, by omega⟩ : Fin 8) (⟨ch.val % 64, Nat.mod_lt _ (by decide)⟩ : Fin 64)
      (⟨h.val * 56 + w.val, by omega⟩ : Fin 3136)) ?_).trans ?_
  · rw [Shape.rowMajor_val_four, Shape.rowMajor_val_four]
    show ((n.val * 8 + ch.val / 64) * 64 + ch.val % 64) * 3136 + (h.val * 56 + w.val)
      = ((n.val * 512 + ch.val) * 56 + h.val) * 56 + w.val
    omega
  rw [outer_ix]
  refine congrArg₂ FloatOps.mulf ?_ ?_
  · refine shapeCast_apply _ shapeCasts_S16x64x56x56_S16x64x3136 _
      (ix4 n (⟨ch.val % 64, Nat.mod_lt _ (by decide)⟩ : Fin 64) h w) ?_
    rw [Shape.rowMajor_val_four, Shape.rowMajor_val_three]
    show ((n.val * 64 + ch.val % 64) * 56 + h.val) * 56 + w.val = (n.val * 64 + ch.val % 64) * 3136 + (h.val * 56 + w.val)
    omega
  · refine shapeCast_apply _ shapeCasts_S16x8x56x56_S16x8x3136 _
      (ix4 n (⟨ch.val / 64, by omega⟩ : Fin 8) h w) ?_
    rw [Shape.rowMajor_val_four, Shape.rowMajor_val_three]
    show ((n.val * 8 + ch.val / 64) * 56 + h.val) * 56 + w.val = (n.val * 8 + ch.val / 64) * 3136 + (h.val * 56 + w.val)
    omega

end Cert.KernelIdeal.Outer

end
-- ==== Proof.KernelRun.lean ====
/-
  The kernel program's run, read as a value.

  Before the launch the host merges the spatial axes of both arguments; the launch leaves the channel outer product
  of the merged arrays in its result array; after the launch the host reads that array back with 512 channels. So
  every weakly fair execution ends with the program's result buffer at `result` of the two arguments, and the
  arguments as they were.
-/
import proofs.«145135_j36876589203912_2_alg».proof.Proof.Blocks
import proofs.«145135_j36876589203912_2_alg».proof.Proof.Result
import Idealize.ShloMosaic.Lib.StableHlo.Run

noncomputable section

namespace Cert.KernelIdeal.Outer

open Idealize.ShloMosaic Idealize.ShloMosaic.TcCoe Idealize.SL.Sem Idealize.ShloMosaic.ValueIdx
open Cert.KernelIdeal Cert.KernelIdeal.Gen Idealize.ShloMosaic.StableHlo
open Idealize.ShloMosaic.Pipeline (Dat)

variable {F : FTy → Type} [FloatOps F]
variable (m : (ℓ : Loc nD τ sig) → Buf (Elt F) ℓ) (ρ : Dev nD → PrngReg)

/-- The first array the launch finds is the first argument with its spatial axes merged. -/
theorem entry_scale (c : Dev nD) :
    (V m c main_v0 : S16x8x3136.Idx → Elt F .f32)
      = shapeCast S16x8x3136 (m ((c : Thread nD τ).loc main_arg0)) shapeCasts_S16x8x56x56_S16x8x3136 := by
  show StableHlo.after hostOps0 (fun b => m (c, b)) (Proc.devRef .tc main_v0) = _
  after_results
  rfl

/-- The second array the launch finds is the second argument with its spatial axes merged. -/
theorem entry_rows (c : Dev nD) :
    (V m c main_v1 : S16x64x3136.Idx → Elt F .f32)
      = shapeCast S16x64x3136 (m ((c : Thread nD τ).loc main_arg1)) shapeCasts_S16x64x56x56_S16x64x3136 := by
  show StableHlo.after hostOps0 (fun b => m (c, b)) (Proc.devRef .tc main_v1) = _
  after_results
  rfl

/-- The program's result buffer after the host line that follows the launch: the launch's result array read back
    with 512 channels. -/
theorem tail_eq (c : Dev nD) :
    Pipeline.afterTail₀ cfgs (dats m) 0 (V0 m) [hostOps1] c main_v3
      = shapeCast S16x512x56x56 ((dats m 0 c).arrAt 2 cfg0.N) shapeCasts_S16x8x64x3136_S16x512x56x56 := by
  unfold Pipeline.afterTail₀
  show StableHlo.after hostOps1 _ (Proc.devRef .tc main_v3) = _
  after_results
  have e := Pipeline.withArrays_arr spec0 launch0.win.arr_inj c (V0 m c) (fun w => (dats m 0 c).arrAt w cfg0.N) 2
  funext i
  show shapeCast S16x512x56x56
      (Pipeline.withArrays spec0 c (V0 m c) (fun w => (dats m 0 c).arrAt w cfg0.N) (Proc.devRef .tc (Pipeline.arrRef spec0 2)))
      shapeCasts_S16x8x64x3136_S16x512x56x56 i = _
  rw [e]

/-- The program's result buffer after the run, as a function of the two arguments. -/
theorem result_eq (c : Dev nD) :
    Pipeline.afterTail₀ cfgs (dats m) 0 (V0 m) [hostOps1] c main_v3
      = result (m ((c : Thread nD τ).loc main_arg0)) (m ((c : Thread nD τ).loc main_arg1)) := by
  rw [tail_eq, region_array, entry_scale, entry_rows]
  rfl

/-- THE RUN: every weakly fair execution of the kernel program terminates with the result buffer at `result` of
    the arguments and the arguments unchanged. -/
theorem run : θ_run defs (onTc (τ := τ) (main (F := F))) ⟨m, fun _ => 0, ρ⟩ fun r => ∀ c : Dev nD,
      r.2.mem ((c.tc : Thread nD τ).loc main_v3)
        = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
      ⟨((h c).2 main_v3 (Pipeline.mem_restRefs_of main_v3 (by decide) (by decide))).trans (result_eq m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

end Cert.KernelIdeal.Outer

end
-- ==== Proof.Agree.lean ====
/-
  The reference computes the same function, with the factors in the other order.

  The reference inserts a unit axis in each argument, broadcasts both to [16, 8, 64, 56, 56], multiplies, and merges
  the two channel axes into 512. Read at (n, ch, h, w) that is `a (n, ch / 64, h, w) · b (n, ch mod 64, h, w)`;
  the kernel program's result there is `b (n, ch mod 64, h, w) · a (n, ch / 64, h, w)`. Multiplication of extended
  reals is commutative — with no exception at the infinities — so the two are equal whatever the inputs hold.
-/
import proofs.«145135_j36876589203912_2_alg».proof.Proof.Result
import proofs.«145135_j36876589203912_2_alg».proof.Proof.Gen.ReferenceIdeal.Read

noncomputable section

namespace Cert.ReferenceIdeal.Agree

open Idealize.ShloMosaic Idealize.ShloMosaic.ValueIdx Cert.ReferenceIdeal Cert.ReferenceIdeal.Read

variable {F : FTy → Type} [FloatOps F]

/-- The reference's result at (n, ch, h, w): both broadcasts read their argument at the channel the merged axis
    splits into, `a` at `ch / 64` and `b` at `ch mod 64`, at the same sample and position. -/
theorem reference_ix (a : S16x8x56x56.Idx → Elt F .f32) (b : S16x64x56x56.Idx → Elt F .f32)
    (n : Fin 16) (ch : Fin 512) (h w : Fin 56) :
    val_main_v5 (F := F) a b (ix4 n ch h w)
      = FloatOps.mulf (a (ix4 n (⟨ch.val / 64, by have := ch.isLt; omega⟩ : Fin 8) h w))
          (b (ix4 n (⟨ch.val % 64, Nat.mod_lt _ (by decide)⟩ : Fin 64) h w)) := by
  have hn : n.val < 16 := n.isLt
  have hch : ch.val < 512 := ch.isLt
  have hh : h.val < 56 := h.isLt
  have hw : w.val < 56 := w.isLt
  rw [val_main_v5_apply, val_main_v4_apply, val_main_v2_apply, val_main_v0_apply, val_main_v3_apply, val_main_v1_apply]
  refine congrArg₂ FloatOps.mulf (congrArg a ?_) (congrArg b ?_)
  · funext d; apply Fin.ext
    match d with
    | ⟨0, _⟩ => show (((n.val * 512 + ch.val) * 56 + h.val) * 56 + w.val) / 1605632 = n.val; omega
    | ⟨1, _⟩ => show (((n.val * 512 + ch.val) * 56 + h.val) * 56 + w.val) / 200704 % 8 = ch.val / 64; omega
    | ⟨2, _⟩ => show (((n.val * 512 + ch.val) * 56 + h.val) * 56 + w.val) / 56 % 56 = h.val; omega
    | ⟨3, _⟩ => show (((n.val * 512 + ch.val) * 56 + h.val) * 56 + w.val) % 56 = w.val; omega
  · funext d; apply Fin.ext
    match d with
    | ⟨0, _⟩ => show (((n.val * 512 + ch.val) * 56 + h.val) * 56 + w.val) / 1605632 = n.val; omega
    | ⟨1, _⟩ => show (((n.val * 512 + ch.val) * 56 + h.val) * 56 + w.val) / 3136 % 64 = ch.val % 64; omega
    | ⟨2, _⟩ => show (((n.val * 512 + ch.val) * 56 + h.val) * 56 + w.val) / 56 % 56 = h.val; omega
    | ⟨3, _⟩ => show (((n.val * 512 + ch.val) * 56 + h.val) * 56 + w.val) % 56 = w.val; omega

/-- AT THE IDEAL INSTANCE the reference's result is the kernel program's result, as whole arrays: index by index
    the same two factors, and a product of extended reals does not depend on their order. -/
theorem reference_eq_result (a : S16x8x56x56.Idx → EReal) (b : S16x64x56x56.Idx → EReal) :
    val_main_v5 (F := Ideal) a b = Cert.KernelIdeal.Outer.result (F := Ideal) a b := by
  funext i
  obtain ⟨n, ch, h, w, rfl⟩ : ∃ (n : Fin 16) (ch : Fin 512) (h w : Fin 56), i = ix4 n ch h w :=
    ⟨i 0, i 1, i 2, i 3, eq_ix4 i⟩
  rw [reference_ix, Cert.KernelIdeal.Outer.result_ix, Ideal.mulf_def, Ideal.mulf_def]
  exact mul_comm _ _

end Cert.ReferenceIdeal.Agree

end
-- ==== Proof.lean ====
/-
  A broadcast product of channels: the kernel against its reference, over the extended reals.

  For `a` of shape [16, 8, 56, 56] and `b` of shape [16, 64, 56, 56] both programs return the array of shape
  [16, 512, 56, 56] that holds, at sample `n`, channel `64·c + k` and position (h, w), the product of `a` at
  (n, c, h, w) and `b` at (n, k, h, w).

  The kernel merges the two spatial axes, and at each of 16 grid points (one per sample) stores eight slabs, slab `c`
  being the sample's 64 rows of `b` each multiplied by row `c` of `a`; the slabs tile the point's block, the blocks
  tile the result (Proof/Slab.lean, Proof/Blocks.lean), and the host reads the result back with 512 channels
  (Proof/KernelRun.lean, Proof/Result.lean). The reference broadcasts both arguments to [16, 8, 64, 56, 56],
  multiplies, and merges the channel axes (Proof/Agree.lean). Index by index the two results are the same two
  factors in opposite orders, and multiplication of extended reals is commutative, infinities included: so the
  precondition (finite inputs) is never opened.

  The three frames: the two kernel programs terminate, fault nowhere and keep their arguments, at the word-level and
  at the ideal instance; the reference's frame is its run with the result dropped. The idealization rewrote no
  operation of the kernel, so there is nothing to preserve beyond the text itself.
-/
import proofs.«145135_j36876589203912_2_alg».proof.Defs
import proofs.«145135_j36876589203912_2_alg».proof.Proof.Gen.Kernel
import proofs.«145135_j36876589203912_2_alg».proof.Proof.Gen.Kernel.Skeleton
import proofs.«145135_j36876589203912_2_alg».proof.Proof.Gen.Kernel.Launch
import proofs.«145135_j36876589203912_2_alg».proof.Proof.Gen.Kernel.Points
import proofs.«145135_j36876589203912_2_alg».proof.Proof.Gen.Kernel.Frame
import proofs.«145135_j36876589203912_2_alg».proof.Proof.Gen.KernelIdeal
import proofs.«145135_j36876589203912_2_alg».proof.Proof.Gen.KernelIdeal.Skeleton
import proofs.«145135_j36876589203912_2_alg».proof.Proof.Gen.KernelIdeal.Launch
import proofs.«145135_j36876589203912_2_alg».proof.Proof.Gen.KernelIdeal.Points
import proofs.«145135_j36876589203912_2_alg».proof.Proof.Gen.KernelIdeal.Frame
import proofs.«145135_j36876589203912_2_alg».proof.Proof.Gen.ReferenceIdeal
import proofs.«145135_j36876589203912_2_alg».proof.Proof.Gen.ReferenceIdeal.Run
import proofs.«145135_j36876589203912_2_alg».proof.Proof.Gen.ReferenceIdeal.Read
import proofs.«145135_j36876589203912_2_alg».proof.Proof.Gen.Pre_finite_inputs
import proofs.«145135_j36876589203912_2_alg».proof.Proof.KernelRun
import proofs.«145135_j36876589203912_2_alg».proof.Proof.Agree
import Idealize.ShloMosaic.Adequacy
import Idealize.ShloMosaic.Init

noncomputable section

namespace Cert.Proof

open Idealize.ShloMosaic Idealize.SL.Sem

/-- The word-level kernel program terminates, faults nowhere and keeps its arguments. -/
theorem frame_kernel : Cert.frame_Kernel := fun m ρ _ => Cert.Kernel.Gen.frame m ρ

/-- So does the kernel program read over the extended reals. -/
theorem frame_kernel_ideal : Cert.frame_KernelIdeal := fun m ρ _ => Cert.KernelIdeal.Gen.frame m ρ

/-- The reference terminates and keeps its arguments: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Over the extended reals, from memories that agree on the two arguments, both programs end with the same result:
    the kernel program's run ends at `result` of its arguments, the reference's at its own composed term of the same
    arguments, and that term is `result` (the factors commute). -/
theorem algebraic : Cert.algebraic_KernelIdeal_ReferenceIdeal := by
  intro m ρ m' ρ' _ hagree
  refine ⟨_, Cert.KernelIdeal.Outer.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2, Cert.ReferenceIdeal.Read.val_main_v5_eq]
  exact Cert.ReferenceIdeal.Agree.reference_eq_result _ _

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
